-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256x512 : Shape := ⟨2, ![256, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S65536x512 .f32) (main_arg1 : FVec F S256x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S65536x512 : Shape := ⟨2, ![65536, 512]⟩
abbrev S256x512 : Shape := ⟨2, ![256, 512]⟩
abbrev S_ : Shape := ⟨0, ![]⟩
abbrev S256 : Shape := ⟨1, ![256]⟩
abbrev S256x1 : Shape := ⟨2, ![256, 1]⟩
abbrev S1x256 : Shape := ⟨2, ![1, 256]⟩
abbrev S65536x256 : Shape := ⟨2, ![65536, 256]⟩
abbrev S2048x512 : Shape := ⟨2, ![2048, 512]⟩
abbrev S2048x256 : Shape := ⟨2, ![2048, 256]⟩
abbrev S2048 : Shape := ⟨1, ![2048]⟩
abbrev S2048x1 : Shape := ⟨2, ![2048, 1]⟩

abbrev nBuf : Space → Nat
  | .hbm => 9
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S256x512, .bf16⟩
  | .hbm, ⟨3, _⟩ => ⟨S256x512, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S1x256, .f32⟩
  | .hbm, ⟨8, _⟩ => ⟨S65536x256, .f32⟩
  | .local _ .vmem, ⟨0, _⟩ => ⟨S2048x512, .f32⟩
  | .local _ .vmem, ⟨1, _⟩ => ⟨S2048x512, .f32⟩
  | .local _ .vmem, ⟨2, _⟩ => ⟨S256x512, .bf16⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S256x512_S256_d1 : S256x512.ReducesTo [1] S256
  h_S_ : 0 < S_.numel
  bcast_S256_S256x1_0 : S256.BroadcastsInDim S256x1 (![0] : Fin 1 → Fin S256x1.rank)
  shapeCasts_S256x1_S1x256 : S256x1.ShapeCasts S1x256
  inb_S2048x512_S2048x512_0_0 : ∀ a, (![0, 0] : Fin 2 → Nat) a + S2048x512.size a ≤ S2048x512.size a
  h_S2048x512 : 0 < S2048x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2048x512_S2048 : S2048x512.Reduces [1] S2048
  shapeCasts_S2048_S2048x1 : S2048.ShapeCasts S2048x1
  broadcasts_S2048x1_S2048x256 : S2048x1.Broadcasts S2048x256
  broadcasts_S1x256_S2048x256 : S1x256.Broadcasts S2048x256
  reduces_S2048x256_S2048 : S2048x256.Reduces [1] S2048
  inb_S2048x256_S2048x256_0_0 : ∀ a, (![0, 0] : Fin 2 → Nat) a + S2048x256.size a ≤ S2048x256.size a
  h_S2048x256 : 0 < S2048x256.numel
  dot_S2048x512_S256x512_S2048x256_1_1_0_0_n_n_wf : DotDims.WF S2048x512 S256x512 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)

variable [Facts₀]

def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S256x512 : Shape := ⟨2, ![256, 512]⟩
abbrev S_ : Shape := ⟨0, ![]⟩
abbrev S65536 : Shape := ⟨1, ![65536]⟩
abbrev S65536x1 : Shape := ⟨2, ![65536, 1]⟩
abbrev S256 : Shape := ⟨1, ![256]⟩
abbrev S65536x256 : Shape := ⟨2, ![65536, 256]⟩
abbrev S1x256 : Shape := ⟨2, ![1, 256]⟩

abbrev nBuf : Space → Nat
  | .hbm => 38
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S65536x512, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S256x512, .f32⟩
  | .hbm, ⟨7, _⟩ => ⟨S_, .f32⟩
  | .hbm, ⟨8, _⟩ => ⟨S256, .f32⟩
  | .hbm, ⟨9, _⟩ => ⟨S65536x256, .f32⟩
  | .hbm, ⟨10, _⟩ => ⟨S1x256, .f32⟩
  | .hbm, ⟨11, _⟩ => ⟨S65536x256, .f32⟩
  | .hbm, ⟨12, _⟩ => ⟨S65536x256, .f32⟩
  | .hbm, ⟨13, _⟩ => ⟨S65536x256, .f32⟩
  | .hbm, ⟨14, _⟩ => ⟨S_, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S_, .f32⟩
  | .hbm, ⟨19, _⟩ => ⟨S65536x256, .f32⟩
  | .hbm, ⟨20, _⟩ => ⟨S65536x256, .f32⟩
  | .hbm, ⟨21, _⟩ => ⟨S_, .f32⟩
  | .hbm, ⟨22, _⟩ => ⟨S65536x256, .f32⟩
  | .hbm, ⟨23, _⟩ => ⟨S65536x256, .f32⟩
  | .hbm, ⟨24, _⟩ => ⟨S_, .f32⟩
  | .hbm, ⟨25, _⟩ => ⟨S65536x256, .f32⟩
  | .hbm, ⟨26, _⟩ => ⟨S65536x256, .f32⟩
  | .hbm, ⟨27, _⟩ => ⟨S_, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S65536x256, .f32⟩
  | .hbm, ⟨37, _⟩ => ⟨S65536x256, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  reducesTo_S256x512_S256_d1 : S256x512.ReducesTo [1] S256
  bcast_S256_S1x256_1 : S256.BroadcastsInDim S1x256 (![1] : Fin 1 → Fin S1x256.rank)
  bcast_S65536x1_S65536x256_0_1 : S65536x1.BroadcastsInDim S65536x256 (![0, 1] : Fin 2 → Fin S65536x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  reducesTo_S65536x256_S65536_d1 : S65536x256.ReducesTo [1] S65536
  dot_S65536x512_S256x512_S65536x256_1_1_0_0_n_n_wf : DotDims.WF S65536x512 S256x512 S65536x256 [1] [1] [0] [0] [] []

variable [Facts₀]

def dot_S65536x512_S256x512_S65536x256_1_1_0_0_n_n : DotDims S65536x512 S256x512 S65536x256 where
  lhsContracting := [1]
  rhsContracting := [1]
  lhsNonContracting := [0]
  rhsNonContracting := [0]
  lhsBatch := []
  rhsBatch := []
  wf := dot_S65536x512_S256x512_S65536x256_1_1_0_0_n_n_wf

class Facts : Prop extends Facts₀ where

variable [Facts]
-- ==== Proof.Assign.lean ====
/-
  The soft assignment of points to cluster centres, as one function of the two argument arrays.

  For a point x (a row of the [65536, 512] array) and a centre c (a row of the [256, 512] array) the squared
  distance is written |x|² + |c|² − 2·⟨x, c⟩ and clamped at 0 from below; the Student-t weight of the pair is
  1 / (1 + dist / 1); and the assignment of the point to the centre is its weight divided by the sum of the
  point's weights over all 256 centres. Every operation is the extended reals' own; the float literals 1 and 2
  are kept as the words both programs print, so the same word on both sides is never evaluated, and the zero
  word (the clamp's bound and every sum's starting value) is the extended real 0.

  One law is proved here: raising to the power 1 is the identity on every extended real. The reference raises
  each weight to the power (1 + 1) / 2 = 1 before it normalises; the kernel leaves that step out.
-/
import Idealize.ShloMosaic.PureOps.Ideal
import Idealize.ShloMosaic.PureOps.Ideal.Laws
import Idealize.ShloMosaic.PureOps.IdealRules
import Idealize.ShloMosaic.Lib.ValueIdx

noncomputable section

namespace Cert.Assign

open Idealize.ShloMosaic Idealize.ShloMosaic.ValueIdx

/-- The squared length of row `n` of a matrix: the sum over the row of each entry times itself. -/
def rowSq {N D : ℕ} (x : (⟨2, ![N, D]⟩ : Shape).Idx → EReal) (n : Fin N) : EReal :=
  ∑ d : Fin D, x (ix2 n d) * x (ix2 n d)

/-- The inner product of row `n` of one matrix with row `k` of another of the same width. -/
def inner {N K D : ℕ} (x : (⟨2, ![N, D]⟩ : Shape).Idx → EReal) (c : (⟨2, ![K, D]⟩ : Shape).Idx → EReal)
    (n : Fin N) (k : Fin K) : EReal :=
  ∑ d : Fin D, x (ix2 n d) * c (ix2 k d)

/-- The Student-t weight of a pair from the point's squared length `a`, the centre's squared length `b` and their
    inner product `s`: 1 / (1 + max (a + b − 2·s) 0 / 1). -/
def weight (a b s : EReal) : EReal :=
  Ideal.div (Ideal.ofBits .f32 0x3F800000#32)
    (Ideal.ofBits .f32 0x3F800000#32
      + Ideal.div (max (a + b - Ideal.ofBits .f32 0x40000000#32 * s) 0)
          (Ideal.ofBits .f32 0x3F800000#32))

/-- One member of a finite family divided by the family's sum. -/
def share {K : ℕ} (w : Fin K → EReal) (k : Fin K) : EReal :=
  Ideal.div (w k) (∑ j : Fin K, w j)

/-- The assignment of point `n` to centre `k`. -/
def assignAt (x : (⟨2, ![65536, 512]⟩ : Shape).Idx → EReal) (c : (⟨2, ![256, 512]⟩ : Shape).Idx → EReal)
    (n : Fin 65536) (k : Fin 256) : EReal :=
  share (fun j : Fin 256 => weight (rowSq x n) (rowSq c j) (inner x c n j)) k

/-- The whole [65536, 256] array of assignments. -/
def assign (x : (⟨2, ![65536, 512]⟩ : Shape).Idx → EReal) (c : (⟨2, ![256, 512]⟩ : Shape).Idx → EReal) :
    (⟨2, ![65536, 256]⟩ : Shape).Idx → EReal :=
  fun i => assignAt x c (i 0) (i 1)

theorem assign_ix2 (x : (⟨2, ![65536, 512]⟩ : Shape).Idx → EReal) (c : (⟨2, ![256, 512]⟩ : Shape).Idx → EReal)
    (n : Fin 65536) (k : Fin 256) : assign x c (ix2 n k) = assignAt x c n k := rfl

/-- The f32 word of 1.0 denotes the real number 1. -/
theorem ofBits_one : Ideal.ofBits .f32 0x3F800000#32 = 1 := IdealRules.sign_bit.ideal_onePat .f32

/-- Raising to the power 1 is the identity on the extended reals: −∞ and +∞ are fixed (the exponent is
    positive), and on a real number it is the real power `r ^ 1 = r`. -/
theorem pow_one (x : EReal) : Ideal.pow x (Ideal.ofBits .f32 0x3F800000#32) = x := by
  rw [ofBits_one]
  induction x using EReal.rec with
  | bot => rfl
  | top =>
    rw [Ideal.pow_top, if_pos (by exact_mod_cast one_pos)]
  | coe r =>
    rw [← EReal.coe_one, Ideal.pow_coe_coe]
    exact congrArg _ (Real.rpow_one r)

end Cert.Assign

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.BlockAssign.lean ====
/-
  What the kernel's body stores, read at an entry of the block.

  At a grid point the body loads a [2048, 512] block of points, the whole [256, 512] array of centres (in the
  narrower float format, which at the extended reals is the same number) and a [1, 256] row holding the centres'
  squared lengths, and stores a [2048, 256] block. Entry (p, q) of what it stores is the weight of the pair
  (row p of the block, centre q) divided by the sum over the 256 centres of row p's weights, where the weight is
  built from the row's squared length (a sum along the row, kept as a column and spread over the 256 columns),
  the centre's squared length (read from the loaded row, spread over the 2048 rows) and the inner product (a
  matrix product into a zero accumulator, contracted along the second axis of both operands).
-/
import proofs.«128246_j88940182766172_2_alg».proof.Proof.Gen.KernelIdeal.Skeleton
import proofs.«128246_j88940182766172_2_alg».proof.Proof.Assign
import proofs.«128246_j88940182766172_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx Cert.Assign Cert.Columns

/-- A scalar float constant at the extended reals is the number its word denotes. -/
theorem scalar_ofBits (φ : FTy) (b : BitVec φ.bits) : Scalar.ofBits (F := Ideal) φ b = Ideal.ofBits φ b := rfl

/-- The sum along the 512 lanes of a [2048, 512] block, at row `p`, started from the zero word. -/
theorem laneSum512 (src : FVec Ideal S2048x512 .f32) (hφ : FTy.f32 = FTy.f32 ∨ FTy.f32 = FTy.bf16)
    (hacc : (0x00000000#32 : BitVec 32) = 0x00000000#32) (p : Fin 2048) :
    multiReduction .add [1] S2048 src 0x00000000#32 reduces_S2048x512_S2048 hφ hacc (ix1 p)
      = ∑ d : Fin 512, src (ix2 p d) := by
  refine (Ideal.multiReduction_add_single src 0x00000000#32 reduces_S2048x512_S2048 hφ hacc (ix1 p)).trans ?_
  exact Finset.sum_congr rfl fun d _ => congrArg src (funext fun a => Fin.ext (by
    match a with | ⟨0, _⟩ => rfl | ⟨1, _⟩ => rfl))

/-- The sum along the 256 lanes of a [2048, 256] block, at row `p`, started from the zero word. -/
theorem laneSum256 (src : FVec Ideal S2048x256 .f32) (hφ : FTy.f32 = FTy.f32 ∨ FTy.f32 = FTy.bf16)
    (hacc : (0x00000000#32 : BitVec 32) = 0x00000000#32) (p : Fin 2048) :
    multiReduction .add [1] S2048 src 0x00000000#32 reduces_S2048x256_S2048 hφ hacc (ix1 p)
      = ∑ k : Fin 256, src (ix2 p k) := by
  refine (Ideal.multiReduction_add_single src 0x00000000#32 reduces_S2048x256_S2048 hφ hacc (ix1 p)).trans ?_
  exact Finset.sum_congr rfl fun k _ => congrArg src (funext fun a => Fin.ext (by
    match a with | ⟨0, _⟩ => rfl | ⟨1, _⟩ => rfl))

/-! The matrix product's operand indices: at output (p, q) and contraction coordinate d the left operand is read
    at (p, d) and the right at (q, d). -/

theorem lhs_0 (i : S2048x256.Idx) (r : dot_S2048x512_S256x512_S2048x256_1_1_0_0_n_n.contr.Idx) :
    (dot_S2048x512_S256x512_S2048x256_1_1_0_0_n_n.lhsIdx i r 0).val = (i 0).val := by
  unfold DotDims.lhsIdx
  rw [dif_neg (show ¬(0 : Fin S2048x512.rank) ∈ dot_S2048x512_S256x512_S2048x256_1_1_0_0_n_n.lhsBatch by decide),
    dif_pos (show (0 : Fin S2048x512.rank) ∈ dot_S2048x512_S256x512_S2048x256_1_1_0_0_n_n.lhsNonContracting by decide)]
  rfl
theorem lhs_1 (i : S2048x256.Idx) (r : dot_S2048x512_S256x512_S2048x256_1_1_0_0_n_n.contr.Idx) :
    (dot_S2048x512_S256x512_S2048x256_1_1_0_0_n_n.lhsIdx i r 1).val = (r ⟨0, by decide⟩).val :=
  dot_S2048x512_S256x512_S2048x256_1_1_0_0_n_n.lhsIdx_val_of_single rfl i r
theorem rhs_0 (i : S2048x256.Idx) (r : dot_S2048x512_S256x512_S2048x256_1_1_0_0_n_n.contr.Idx) :
    (dot_S2048x512_S256x512_S2048x256_1_1_0_0_n_n.rhsIdx i r 0).val = (i 1).val := by
  unfold DotDims.rhsIdx
  rw [dif_neg (show ¬(0 : Fin S256x512.rank) ∈ dot_S2048x512_S256x512_S2048x256_1_1_0_0_n_n.rhsBatch by decide),
    dif_pos (show (0 : Fin S256x512.rank) ∈ dot_S2048x512_S256x512_S2048x256_1_1_0_0_n_n.rhsNonContracting by decide)]
  rfl
theorem rhs_1 (i : S2048x256.Idx) (r : dot_S2048x512_S256x512_S2048x256_1_1_0_0_n_n.contr.Idx) :
    (dot_S2048x512_S256x512_S2048x256_1_1_0_0_n_n.rhsIdx i r 1).val = (r ⟨0, by decide⟩).val :=
  dot_S2048x512_S256x512_S2048x256_1_1_0_0_n_n.rhsIdx_val_of_single rfl i r

/-- The matrix product into a zero accumulator, at (p, q): the inner product of row `p` of the left operand with
    row `q` of the right. -/
theorem product_apply (l : FVec Ideal S2048x512 .bf16) (r : FVec Ideal S256x512 .bf16) (p : Fin 2048) (q : Fin 256) :
    matmul dot_S2048x512_S256x512_S2048x256_1_1_0_0_n_n none l r (constant S2048x256 .f32 0x00000000#32) (ix2 p q)
      = ∑ d : Fin 512, l (ix2 p d) * r (ix2 q d) := by
  refine (Ideal.matmul_constant_zero_apply dot_S2048x512_S256x512_S2048x256_1_1_0_0_n_n none l r (ix2 p q)).trans ?_
  rw [← Equiv.sum_comp (ValueIdx.contrEquiv1 dot_S2048x512_S256x512_S2048x256_1_1_0_0_n_n 512 rfl rfl).symm]
  refine Finset.sum_congr rfl fun d _ => ?_
  have hd := ValueIdx.contrEquiv1_symm_val dot_S2048x512_S256x512_S2048x256_1_1_0_0_n_n 512 rfl rfl d
  have el : dot_S2048x512_S256x512_S2048x256_1_1_0_0_n_n.lhsIdx (ix2 p q)
      ((ValueIdx.contrEquiv1 dot_S2048x512_S256x512_S2048x256_1_1_0_0_n_n 512 rfl rfl).symm d) = ix2 p d :=
    funext fun a => Fin.ext (by
      match a with
      | ⟨0, _⟩ => exact lhs_0 _ _
      | ⟨1, _⟩ => exact (lhs_1 _ _).trans hd)
  have er : dot_S2048x512_S256x512_S2048x256_1_1_0_0_n_n.rhsIdx (ix2 p q)
      ((ValueIdx.contrEquiv1 dot_S2048x512_S256x512_S2048x256_1_1_0_0_n_n 512 rfl rfl).symm d) = ix2 q d :=
    funext fun a => Fin.ext (by
      match a with
      | ⟨0, _⟩ => exact rhs_0 _ _
      | ⟨1, _⟩ => exact (rhs_1 _ _).trans hd)
  rw [el, er]

/-- THE STORED BLOCK at (p, q): row `p`'s weight against centre `q` over the sum of row `p`'s weights, the centres'
    squared lengths read from the loaded row. -/
theorem stored_apply (x0 : FVec Ideal S2048x512 .f32) (x1 : FVec Ideal S256x512 .bf16) (x3 : FVec Ideal S1x256 .f32)
    (p : Fin 2048) (q : Fin 256) :
    k0_pay1 (F := Ideal) x0 x1 x3 (ix2 p q)
      = share (fun j : Fin 256 => weight (rowSq x0 p) (x3 (ix2 (0 : Fin 1) j)) (inner x0 x1 p j)) q := by
  unfold k0_pay1
  -- the quotient at (p, q): the denominator is the lane sum of the weights' block, at row p
  simp only [divf_apply, addf_apply, subf_apply, mulf_apply, maximumf_apply, broadcast_apply, truncf_apply,
    shapeCast_self, broadcastTo_a1_ab_apply, shapeCast_a_a1_apply, broadcastTo_1b_ab_apply,
    product_apply, scalar_ofBits, Ideal.ofBits_zero_f32]
  rw [laneSum256]
  -- each weight of row p, at (p, k)
  simp only [divf_apply, addf_apply, subf_apply, mulf_apply, maximumf_apply, broadcast_apply, truncf_apply,
    shapeCast_self, broadcastTo_a1_ab_apply, shapeCast_a_a1_apply, broadcastTo_1b_ab_apply,
    product_apply, scalar_ofBits, Ideal.ofBits_zero_f32]
  -- the row's squared length, the same in every weight
  rw [laneSum512]
  rfl

end Cert.KernelIdeal.BlockValue

end
-- ==== Proof.ArrayAssign.lean ====
/-
  The kernel's result array is the soft assignment.

  The grid has 32 points. Point t reads rows 2048·t … 2048·t + 2047 of the points' array, the whole array of
  centres and the whole row of the centres' squared lengths, and writes rows 2048·t … 2048·t + 2047 of the
  result. Before the grid runs, the host prepares the last two: the centres in the narrower float format (the
  same numbers at the extended reals) and, for each centre, the sum along its 512 coordinates of each coordinate
  times itself, started from the zero word, kept as a column and reshaped to a row.

  So entry (p, q) of what point t writes back is the assignment of point 2048·t + p to centre q: the block's row p
  is the array's row 2048·t + p, and the loaded row holds the centres' squared lengths. The 32 blocks cover the
  array (row r lies in block r / 2048), hence the array ends holding the assignment.
-/
import proofs.«128246_j88940182766172_2_alg».proof.Proof.Gen.KernelIdeal.Value
import proofs.«128246_j88940182766172_2_alg».proof.Proof.BlockAssign
import proofs.«128246_j88940182766172_2_alg».proof.Proof.Assign
import proofs.«128246_j88940182766172_2_alg».proof.Proof.LibColumns
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.Assign Cert.Columns
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Which block each window is on at point `t`: the points' and the result's windows move down with `t`, the
    centres' and the squared lengths' stay on their one block. Decided over the 32 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What the host leaves in the two arrays it prepares -/

/-- The centres in the narrower format are the centres. -/
theorem centres_eq (c : Dev nD) :
    (V m c main_call0_v0 : S256x512.Idx → EReal) = (m ((c : Thread nD τ).loc main_arg1) : S256x512.Idx → EReal) := by
  dsimp only [V, hostOps0]; after_results; rfl

/-- The prepared row: the host's sum along each centre's coordinates, as a column, reshaped to a row. -/
theorem sqrow_eq (c : Dev nD) :
    (V m c main_call0_v4 : S1x256.Idx → EReal)
      = shapeCast S1x256 (broadcastInDim S256x1 ![0] bcast_S256_S256x1_0
          (Host.reduceAdd (F := Ideal) (mulf (m ((c : Thread nD τ).loc main_arg1)) (m ((c : Thread nD τ).loc main_arg1)))
            (constant (F := Ideal) S_ .f32 0x00000000#32) reducesTo_S256x512_S256_d1 h_S_)) shapeCasts_S256x1_S1x256 := by
  dsimp only [V, hostOps0]; after_results; rfl

/-- Entry (0, j) of the prepared row is centre `j`'s squared length. -/
theorem sqrow_apply (c : Dev nD) (j : Fin 256) :
    (V m c main_call0_v4 : S1x256.Idx → EReal) (ix2 (0 : Fin 1) j)
      = rowSq (m ((c : Thread nD τ).loc main_arg1) : S256x512.Idx → EReal) j := by
  rw [sqrow_eq m c, shapeCast_a1_1a_apply, broadcastInDim_a_a1_apply _ rfl]
  simp only [Host.reduceAdd, Ideal.hostReduceAdd_def]
  rw [Ideal.hostReduceAdd_single reducesTo_S256x512_S256_d1 (by decide)]
  show Ideal.ofBits .f32 0x00000000#32 + _ = _
  rw [Ideal.ofBits_zero_f32, zero_add]
  unfold rowSq
  exact Finset.sum_congr rfl fun d _ => by
    have e : (Shape.Reduces.lift (by decide : S256x512.Reduces [1] S256) (ix1 j) d : S256x512.Idx) = ix2 j d :=
      funext fun a => Fin.ext (by match a with | ⟨0, _⟩ => rfl | ⟨1, _⟩ => rfl)
    rw [e]; rfl

/-! ## The input blocks at a point, as rows of the arrays -/

/-- Row `p` of the points' block at point `t` is row 2048·t + p of the points' array. -/
theorem points_block (c : Dev nD) (t : Fin cfg0.N) (p : Fin 2048) (d : Fin 512) (n : Fin 65536) (hn : n.val = t.val * 2048 + p.val) :
    (iblk m c 0 t : S2048x512.Idx → EReal) (ix2 p d)
      = (m ((c : Thread nD τ).loc main_arg0) : S65536x512.Idx → EReal) (ix2 n d) := by
  obtain ⟨e0, e1, -⟩ := block_indices t
  unfold iblk
  rw [View.read_apply]
  show V m c main_arg0 _ = _
  rw [V_main_arg0 m c]
  refine congrArg (m ((c : Thread nD τ).loc main_arg0) : S65536x512.Idx → EReal) (funext fun a => Fin.ext ?_)
  match a with
  | ⟨0, _⟩ => show win0_0.index t (0 : Fin 2) * 2048 + 1 * p.val = n.val; rw [e0, hn]; omega
  | ⟨1, _⟩ => show win0_0.index t (1 : Fin 2) * 512 + 1 * d.val = d.val; rw [e1]; omega

/-- The centres' block at any point is the whole array of centres. -/
theorem centres_block (c : Dev nD) (t : Fin cfg0.N) (k : Fin 256) (d : Fin 512) :
    (iblk m c 1 t : S256x512.Idx → EReal) (ix2 k d)
      = (m ((c : Thread nD τ).loc main_arg1) : S256x512.Idx → EReal) (ix2 k d) := by
  obtain ⟨-, -, e2, e3, -⟩ := block_indices t
  unfold iblk
  rw [View.read_apply]
  show (V m c main_call0_v0 : S256x512.Idx → EReal) _ = _
  rw [centres_eq m c]
  refine congrArg (m ((c : Thread nD τ).loc main_arg1) : S256x512.Idx → EReal) (funext fun a => Fin.ext ?_)
  match a with
  | ⟨0, _⟩ => show win0_1.index t (0 : Fin 2) * 256 + 1 * k.val = k.val; rw [e2]; omega
  | ⟨1, _⟩ => show win0_1.index t (1 : Fin 2) * 512 + 1 * d.val = d.val; rw [e3]; omega

/-- The squared lengths' block at any point, at (0, j), is centre `j`'s squared length. -/
theorem sqrow_block (c : Dev nD) (t : Fin cfg0.N) (j : Fin 256) :
    (iblk m c 2 t : S1x256.Idx → EReal) (ix2 (0 : Fin 1) j)
      = rowSq (m ((c : Thread nD τ).loc main_arg1) : S256x512.Idx → EReal) j := by
  obtain ⟨-, -, -, -, e4, e5, -⟩ := block_indices t
  unfold iblk
  rw [View.read_apply]
  show (V m c main_call0_v4 : S1x256.Idx → EReal) _ = _
  refine (congrArg (V m c main_call0_v4 : S1x256.Idx → EReal) (funext fun a => Fin.ext ?_)).trans (sqrow_apply m c j)
  match a with
  | ⟨0, _⟩ => show win0_2.index t (0 : Fin 2) * 1 + 1 * 0 = 0; rw [e4]
  | ⟨1, _⟩ => show win0_2.index t (1 : Fin 2) * 256 + 1 * j.val = j.val; rw [e5]; omega

/-- A block row's squared length is the array row's. -/
theorem rowSq_block (c : Dev nD) (t : Fin cfg0.N) (p : Fin 2048) (n : Fin 65536) (hn : n.val = t.val * 2048 + p.val) :
    rowSq (iblk m c 0 t : S2048x512.Idx → EReal) p = rowSq (m ((c : Thread nD τ).loc main_arg0) : S65536x512.Idx → EReal) n := by
  unfold rowSq
  exact Finset.sum_congr rfl fun d _ => by rw [points_block m c t p d n hn]

/-- A block row's inner product with a centre is the array row's. -/
theorem inner_block (c : Dev nD) (t : Fin cfg0.N) (p : Fin 2048) (n : Fin 65536) (hn : n.val = t.val * 2048 + p.val) (j : Fin 256) :
    inner (iblk m c 0 t : S2048x512.Idx → EReal) (iblk m c 1 t : S256x512.Idx → EReal) p j
      = inner (m ((c : Thread nD τ).loc main_arg0) : S65536x512.Idx → EReal) (m ((c : Thread nD τ).loc main_arg1) : S256x512.Idx → EReal) n j := by
  unfold Cert.Assign.inner
  exact Finset.sum_congr rfl fun d _ => by rw [points_block m c t p d n hn, centres_block m c t j d]

/-! ## From the blocks to the array -/

/-- WHAT POINT `t` WRITES BACK is block `t` of the assignment. -/
theorem flushed_eq (c : Dev nD) (t : Fin cfg0.N) :
    (dats m 0 c).flushed 3 t = ((cfg0.win 3).blk t).view.read (Elt Ideal)
      (assign (m ((c : Thread nD τ).loc main_arg0)) (m ((c : Thread nD τ).loc main_arg1))) := by
  rw [flushed3]
  unfold out0_3
  rw [View.canon_unit_zero origin]
  simp only [View.ld_unit_zero (S := S2048x512) origin, View.ld_unit_zero (S := S256x512) origin,
    View.ld_unit_zero (S := S1x256) origin]
  obtain ⟨-, -, -, -, -, -, e6, e7⟩ := block_indices t
  refine funext fun (y : S2048x256.Idx) => ?_
  obtain ⟨p, q, rfl⟩ : ∃ (p : Fin 2048) (q : Fin 256), y = ix2 p q := ⟨y 0, y 1, eq_ix2 y⟩
  have ht : t.val < 32 := lt_of_lt_of_eq t.isLt N_0
  have hp : t.val * 2048 + p.val < 65536 := by have := p.isLt; omega
  show k0_pay1 (F := Ideal) (iblk m c 0 t) (iblk m c 1 t) (iblk m c 2 t) (ix2 p q)
    = assign (m ((c : Thread nD τ).loc main_arg0)) (m ((c : Thread nD τ).loc main_arg1)) (((cfg0.win 3).blk t).view.emb (ix2 p q))
  have hemb : ((cfg0.win 3).blk t).view.emb (ix2 p q) = ix2 (⟨t.val * 2048 + p.val, hp⟩ : Fin 65536) q :=
    funext fun a => Fin.ext (by
      match a with
      | ⟨0, _⟩ => show win0_3.index t (0 : Fin 2) * 2048 + 1 * p.val = t.val * 2048 + p.val; rw [e6]; omega
      | ⟨1, _⟩ => show win0_3.index t (1 : Fin 2) * 256 + 1 * q.val = q.val; rw [e7]; omega)
  rw [hemb, assign_ix2]
  refine (BlockValue.stored_apply (iblk m c 0 t) (iblk m c 1 t) (iblk m c 2 t) p q).trans ?_
  unfold assignAt
  simp only [rowSq_block m c t p ⟨t.val * 2048 + p.val, hp⟩ rfl, inner_block m c t p ⟨t.val * 2048 + p.val, hp⟩ rfl,
    sqrow_block m c t]

/-- An index of the result array is in point `t`'s block iff each coordinate is in the block's range on its axis. -/
theorem mem_block (t : Fin cfg0.N) (i : S65536x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v0).slice (win0_3.rect t)).set ↔ _
  rw [View.set_slice_whole, Rect.mem_set_unit]
  exact Iff.rfl

/-- The blocks cover the array: row r lies in the block of point r / 2048. -/
theorem covered (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  have hlt : (i 0).val / 2048 < cfg0.N := lt_of_lt_of_eq (by omega : (i 0).val / 2048 < 32) N_0.symm
  obtain ⟨-, -, -, -, -, -, e6, e7⟩ := block_indices ⟨(i 0).val / 2048, hlt⟩
  refine ⟨⟨(i 0).val / 2048, hlt⟩, flush0_3 _, ?_⟩
  rw [mem_block]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    rw [e6]
    show (i 0).val / 2048 * 2048 ≤ (i 0).val ∧ (i 0).val < (i 0).val / 2048 * 2048 + 2048
    omega
  | ⟨1, _⟩ =>
    show win0_3.index ⟨(i 0).val / 2048, hlt⟩ (1 : Fin 2) * 256 ≤ (i 1).val
      ∧ (i 1).val < win0_3.index ⟨(i 0).val / 2048, hlt⟩ (1 : Fin 2) * 256 + 256
    rw [e7]
    omega

/-- THE ARRAY after the run is the assignment. -/
theorem final (c : Dev nD) :
    (dats m 0 c).arrAt 3 cfg0.N = assign (m ((c : Thread nD τ).loc main_arg0)) (m ((c : Thread nD τ).loc main_arg1)) :=
  (dats m 0 c).arrAt_eq_of_cover 3 (assign (m ((c : Thread nD τ).loc main_arg0)) (m ((c : Thread nD τ).loc main_arg1)))
    (fun t _ => flushed_eq m c t) covered

/-- The kernel's run, read: the result array at the assignment, the arguments unchanged. -/
theorem run : θ_run defs (onTc (τ := τ) (main (F := Ideal))) ⟨m, fun _ => 0, ρ⟩ fun r => ∀ c : Dev nD,
      r.2.mem ((c : Thread nD τ).loc main_v0) = assign (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.HostAssign.lean ====
/-
  The host program computes the soft assignment.

  Read one operation at a time, the host program's result at (n, k) is the weight of the pair (point n, centre k)
  raised to the power 1 and divided by the sum over the 256 centres of the point's weights raised to the power 1.
  The weight is built from three sums along the 512 coordinates: the point's squared length (broadcast along the
  row), the centre's squared length (broadcast down the column) and the inner product (a matrix product with the
  centres' array contracted along its second axis). Each host sum starts from the zero word, which is the extended
  real 0 and drops out; the power 1 is the identity; what is left is the assignment, term for term.
-/
import proofs.«128246_j88940182766172_2_alg».proof.Proof.Gen.ReferenceIdeal.Read
import proofs.«128246_j88940182766172_2_alg».proof.Proof.Assign

noncomputable section

namespace Cert.ReferenceIdeal.RefValue

open Cert.ReferenceIdeal Cert.ReferenceIdeal.Read Idealize.ShloMosaic Idealize.ShloMosaic.ValueIdx Cert.Assign

/-- The stage before the normalisation, at (n, j): the weight of point `n` and centre `j` (the power 1 removed). -/
theorem weight_eq (x0 : (⟨S65536x512, .f32⟩ : BufTy).Contents (Elt Ideal)) (x1 : (⟨S256x512, .f32⟩ : BufTy).Contents (Elt Ideal))
    (n : Fin 65536) (j : Fin 256) :
    val_main_v22 (F := Ideal) x0 x1 (ix2 n j) = weight (rowSq x0 n) (rowSq x1 j) (inner x0 x1 n j) := by
  -- the rows the three sums run along
  have e1 : ∀ d : Fin 512, idx_main_v1 (idx_main_v2 (idx_main_v7 (ix2 n j))) d = ix2 n d :=
    fun d => funext fun a => Fin.ext (by match a with | ⟨0, _⟩ => rfl | ⟨1, _⟩ => rfl)
  have e4 : ∀ d : Fin 512, idx_main_v4 (idx_main_v6 (idx_main_v8 (ix2 n j))) d = ix2 j d :=
    fun d => funext fun a => Fin.ext (by match a with | ⟨0, _⟩ => rfl | ⟨1, _⟩ => rfl)
  have el : ∀ d : Fin 512, lidx_main_v5 (ix2 n j) d = ix2 n d :=
    fun d => funext fun a => Fin.ext (by match a with | ⟨0, _⟩ => rfl | ⟨1, _⟩ => rfl)
  have er : ∀ d : Fin 512, ridx_main_v5 (ix2 n j) d = ix2 j d :=
    fun d => funext fun a => Fin.ext (by match a with | ⟨0, _⟩ => rfl | ⟨1, _⟩ => rfl)
  rw [val_main_v22_apply, val_main_v20_apply, val_main_v21_apply, val_main_cst_6_apply, val_main_v19_apply,
    val_main_cst_5_apply, val_main_v18_apply, val_main_v17_apply, val_main_cst_4_apply, val_main_v16_apply,
    val_main_v15_apply, val_main_cst_3_apply, val_main_v14_apply, val_main_v13_apply, val_main_cst_2_apply,
    val_main_v12_apply, val_main_v9_apply, val_main_v7_apply, val_main_v2_apply, val_main_v1_apply,
    val_main_cst_apply, val_main_v8_apply, val_main_v6_apply, val_main_v4_apply, val_main_cst_0_apply,
    val_main_v11_apply, val_main_v10_apply, val_main_cst_1_apply, val_main_v5_apply]
  simp only [val_main_v0_apply, val_main_v3_apply, e1, e4, el, er, Ideal.ofBits_def, Ideal.hostPowf_def,
    Ideal.hostDivf_def, Ideal.addf_def, Ideal.subf_def, Ideal.mulf_def, Ideal.maximumf_def, Cert.Assign.pow_one,
    Ideal.ofBits_zero_f32, zero_add]
  rfl

/-- The host program's last stage is the assignment, index by index. -/
theorem result_eq (x0 : (⟨S65536x512, .f32⟩ : BufTy).Contents (Elt Ideal)) (x1 : (⟨S256x512, .f32⟩ : BufTy).Contents (Elt Ideal)) :
    val_main_v26 (F := Ideal) x0 x1 = assign x0 x1 := by
  funext i
  obtain ⟨n, k, rfl⟩ : ∃ (n : Fin 65536) (k : Fin 256), i = ix2 n k := ⟨i 0, i 1, eq_ix2 i⟩
  -- the row the normalising sum runs along
  have e23 : ∀ j : Fin 256, idx_main_v23 (idx_main_v24 (idx_main_v25 (ix2 n k))) j = ix2 n j :=
    fun j => funext fun a => Fin.ext (by match a with | ⟨0, _⟩ => rfl | ⟨1, _⟩ => rfl)
  rw [assign_ix2, val_main_v26_apply, val_main_v25_apply, val_main_v24_apply, val_main_v23_apply, val_main_cst_7_apply]
  simp only [e23, weight_eq, Ideal.ofBits_def, Ideal.hostDivf_def, Ideal.ofBits_zero_f32, zero_add]
  rfl

end Cert.ReferenceIdeal.RefValue

end
-- ==== Proof.lean ====
/-
  A clustering layer's soft assignment, computed by a tiled kernel and by a plain host program: both are one
  function of the two argument arrays.

  Given 65536 points and 256 cluster centres in 512 dimensions, the squared distance of a point x to a centre c
  is written |x|² + |c|² − 2·⟨x, c⟩ and clamped at 0; the pair's Student-t weight is 1 / (1 + dist / 1); the
  result holds, for each point, its 256 weights divided by their sum.

  The kernel walks the points in 32 blocks of 2048 rows. The host prepares the centres' squared lengths once (a
  sum along each centre's coordinates, reshaped to a row) and hands the centres over in a narrower float format,
  which at the extended reals is the same number; in each block the inner products are one matrix product into a
  zero accumulator and the two row sums are lane reductions. The host program computes the same three sums over
  the whole arrays, broadcasts them, and raises each weight to the power (1 + 1) / 2 = 1 before normalising.

  At the extended reals a lane reduction, a host sum started from the zero word and a matrix product into a zero
  accumulator are the plain finite sums, so the only step that separates the two programs is the power, and
  raising to the power 1 is the identity on every extended real (−∞ and +∞ included). Nothing in the argument
  divides out, distributes or cancels, so the inputs' finiteness is never used.

  The modules: Assign (the assignment as one function, and the law of the power 1); HostAssign (the host program's
  last stage is the assignment); BlockAssign (what the kernel's body stores, at an entry of a block); ArrayAssign
  (the blocks at each grid point are rows of the arrays, what each point writes back is a block of the
  assignment, and the blocks cover the result); LibColumns (a column kept by a row reduction, read at an index).
  The three frames are the generated frame theorems and the host program's generated run; the idealisation rewrote
  nothing, so that conjunct is `True`.
-/
import proofs.«128246_j88940182766172_2_alg».proof.Defs
import proofs.«128246_j88940182766172_2_alg».proof.Proof.Gen.Kernel
import proofs.«128246_j88940182766172_2_alg».proof.Proof.Gen.Kernel.Skeleton
import proofs.«128246_j88940182766172_2_alg».proof.Proof.Gen.Kernel.Launch
import proofs.«128246_j88940182766172_2_alg».proof.Proof.Gen.Kernel.Points
import proofs.«128246_j88940182766172_2_alg».proof.Proof.Gen.Kernel.Frame
import proofs.«128246_j88940182766172_2_alg».proof.Proof.Gen.KernelIdeal
import proofs.«128246_j88940182766172_2_alg».proof.Proof.Gen.KernelIdeal.Skeleton
import proofs.«128246_j88940182766172_2_alg».proof.Proof.Gen.KernelIdeal.Launch
import proofs.«128246_j88940182766172_2_alg».proof.Proof.Gen.KernelIdeal.Points
import proofs.«128246_j88940182766172_2_alg».proof.Proof.Gen.KernelIdeal.Frame
import proofs.«128246_j88940182766172_2_alg».proof.Proof.Gen.ReferenceIdeal
import proofs.«128246_j88940182766172_2_alg».proof.Proof.Gen.KernelIdeal.Value
import proofs.«128246_j88940182766172_2_alg».proof.Proof.Gen.ReferenceIdeal.Run
import proofs.«128246_j88940182766172_2_alg».proof.Proof.Gen.ReferenceIdeal.Read
import proofs.«128246_j88940182766172_2_alg».proof.Proof.Gen.Pre_finite_inputs
import Idealize.ShloMosaic.Adequacy
import Idealize.ShloMosaic.Init
import proofs.«128246_j88940182766172_2_alg».proof.Proof.ArrayAssign
import proofs.«128246_j88940182766172_2_alg».proof.Proof.HostAssign

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealisation. -/
theorem frame_ideal : Cert.frame_KernelIdeal := fun m ρ _ => Cert.KernelIdeal.Gen.frame m ρ

/-- The host program runs and leaves its arguments unchanged: its run, with the result dropped. -/
theorem frame_host : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the two arguments, the kernel's result array ends at the assignment of its
    arguments and the host program's at the assignment of its own: the same array. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_ideal, frame_host, preserves, algebraic⟩

end Cert.Proof

end
